-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000 : Shape := ⟨1, ![800000]⟩
abbrev S50000x128 : Shape := ⟨2, ![50000, 128]⟩
abbrev S128x128 : Shape := ⟨2, ![128, 128]⟩
abbrev S128 : Shape := ⟨1, ![128]⟩
abbrev S_ : Shape := ⟨0, ![]⟩

class Facts : Prop where
  bcast_S_S800000 : S_.BroadcastsInDim S800000 (![] : Fin 0 → Fin S800000.rank)
  reducesTo_S800000_S_d0 : S800000.ReducesTo [0] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : IVec S800000 32) (main_arg1 : IVec S800000 32) (main_arg2 : FVec F S800000 .f32) (main_arg3 : FVec F S50000x128 .f32) (main_arg4 : FVec F S128x128 .f32) (main_arg5 : FVec F S128 .f32) : IVec S_ 1 :=
  let main_v0 : FVec F S800000 .f32 := Host.absf main_arg2
  let main_cst : FVec F S_ .f32 := constant S_ .f32 0x7F800000#32
  let main_v1 : FVec F S800000 .f32 := broadcastInDim S800000 ![] bcast_S_S800000 main_cst
  let main_v2 : IVec S800000 1 := cmpf .olt main_v0 main_v1
  let main_c : IVec S_ 1 := constantI S_ 1 1#1
  let main_v3 : IVec S_ 1 := (fun x v => Host.reduce IntOp.andi x v reducesTo_S800000_S_d0 h_S_) main_v2 main_c
  let main_v4 : FVec F S50000x128 .f32 := Host.absf main_arg3
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S800000 : Shape := ⟨1, ![800000]⟩
abbrev S50000x128 : Shape := ⟨2, ![50000, 128]⟩
abbrev S128x128 : Shape := ⟨2, ![128, 128]⟩
abbrev S128 : Shape := ⟨1, ![128]⟩
abbrev S5000x128 : Shape := ⟨2, ![5000, 128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 27
  | .vmem => 5
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S800000, .f32⟩
  | .hbm, ⟨3, _⟩ => ⟨S50000x128, .f32⟩
  | .hbm, ⟨4, _⟩ => ⟨S128x128, .f32⟩
  | .hbm, ⟨5, _⟩ => ⟨S128, .f32⟩
  | .hbm, ⟨6, _⟩ => ⟨S50000x128, .bf16⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .bf16⟩
  | .hbm, ⟨16, _⟩ => ⟨S800000x128, .f32⟩
  | .hbm, ⟨17, _⟩ => ⟨S800000x1, .f32⟩
  | .hbm, ⟨18, _⟩ => ⟨S800000x128, .f32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S1x128, .f32⟩
  | .hbm, ⟨25, _⟩ => ⟨S50000x128, .f32⟩
  | .hbm, ⟨26, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .bf16⟩
  | .local _ .vmem, ⟨4, _⟩ => ⟨S5000x128, .bf16⟩
  | _, _ => ⟨S800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S5000x128_S5000x128_0_0 : (Rect.unit (s := S5000x128) ![0, 0] S5000x128.size inb_S5000x128_S5000x128_0_0).PackedRows (EltTy.packing .bf16)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .bf16 = 32 ∨ (Rect.block (s := S50000x128) S5000x128.size (cc0_transform_2 i) (hinb0_2 i)).WholeWords (EltTy.packing .bf16)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg3) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S800000 : Shape := ⟨1, ![800000]⟩
abbrev S50000x128 : Shape := ⟨2, ![50000, 128]⟩
abbrev S128x128 : Shape := ⟨2, ![128, 128]⟩
abbrev S128 : Shape := ⟨1, ![128]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S800000, .f32⟩
  | .hbm, ⟨3, _⟩ => ⟨S50000x128, .f32⟩
  | .hbm, ⟨4, _⟩ => ⟨S128x128, .f32⟩
  | .hbm, ⟨5, _⟩ => ⟨S128, .f32⟩
  | .hbm, ⟨6, _⟩ => ⟨S50000x128, .f32⟩
  | .hbm, ⟨7, _⟩ => ⟨S800000x1, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S800000x128, .f32⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S1x128, .f32⟩
  | .hbm, ⟨24, _⟩ => ⟨S50000x128, .f32⟩
  | .hbm, ⟨25, _⟩ => ⟨S50000x128, .f32⟩
  | _, _ => ⟨S800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.LibPlainDot.lean ====
/-
  A plain matrix product as one function of the whole matrices, and the host's `dot_general` as that function.

  `matProd X W` is the product of an `[M, K]` matrix by a `[K, N]` matrix on the extended reals, entry by entry:
  `(X · W)(i, o) = Σ_k X(i, k) · W(k, o)`.  The host's `dot_general` that contracts the first operand's second axis with
  the second operand's first axis, with no batch axis, IS this function at the ideal values — for any dimension record
  with this layout, given the record's four coordinate facts (which operand coordinate reads the result index, which
  the contraction index), whatever the extents, the precision and the schedule key.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

/-- The matrix product on the extended reals: entry `(i, o)` is `Σ_k X(i, k) · W(k, o)`. -/
def matProd {M K N : ℕ} (X : (⟨2, ![M, K]⟩ : Shape).Idx → EReal) (W : (⟨2, ![K, N]⟩ : Shape).Idx → EReal) :
    (⟨2, ![M, N]⟩ : Shape).Idx → EReal :=
  fun j => ∑ k : Fin K, X (ix2 (j 0) k) * W (ix2 k (j 1))

/-- The product read at a row and a column. -/
theorem matProd_apply {M K N : ℕ} (X : (⟨2, ![M, K]⟩ : Shape).Idx → EReal) (W : (⟨2, ![K, N]⟩ : Shape).Idx → EReal)
    (i : Fin M) (o : Fin N) : matProd X W (ix2 i o) = ∑ k : Fin K, X (ix2 i k) * W (ix2 k o) := rfl

/-- The host's plain `dot_general`, read at `(i, o)`, is `Σ_k lhs(i, k) · rhs(k, o)`. -/
theorem dotGeneral_apply {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ (j : (⟨2, ![M, N]⟩ : Shape).Idx) (q : d.contr.Idx), (d.lhsIdx j q ⟨0, Nat.zero_lt_two⟩).val = (j ⟨0, Nat.zero_lt_two⟩).val)
    (l1 : ∀ (j : (⟨2, ![M, N]⟩ : Shape).Idx) (q : d.contr.Idx), (d.lhsIdx j q ⟨1, Nat.one_lt_two⟩).val = (q ⟨0, by omega⟩).val)
    (r0 : ∀ (j : (⟨2, ![M, N]⟩ : Shape).Idx) (q : d.contr.Idx), (d.rhsIdx j q ⟨0, Nat.zero_lt_two⟩).val = (q ⟨0, by omega⟩).val)
    (r1 : ∀ (j : (⟨2, ![M, N]⟩ : Shape).Idx) (q : d.contr.Idx), (d.rhsIdx j q ⟨1, Nat.one_lt_two⟩).val = (j ⟨1, Nat.one_lt_two⟩).val)
    (prec : Option ContractPrecision) (sched : HostSchedule) (lhs : FVec Ideal ⟨2, ![M, K]⟩ φ₁) (rhs : FVec Ideal ⟨2, ![K, N]⟩ φ₂)
    (i : Fin M) (o : Fin N) :
    FloatOps.dotGeneral d prec sched lhs rhs (ix2 i o) = ∑ k : Fin K, lhs (ix2 i k) * rhs (ix2 k o) := by
  refine (Ideal.dotGeneral_apply d prec sched lhs rhs (ix2 i o)).trans ?_
  rw [← Equiv.sum_comp (contrEquiv1 d K hr hs).symm]
  refine Finset.sum_congr rfl fun k _ => ?_
  have hk := contrEquiv1_symm_val d K hr hs k
  have el : d.lhsIdx (ix2 i o) ((contrEquiv1 d K hr hs).symm k) = ix2 i k := funext fun a => Fin.ext (by
    match a with
    | ⟨0, _⟩ => exact l0 _ _
    | ⟨1, _⟩ => exact (l1 _ _).trans hk)
  have er : d.rhsIdx (ix2 i o) ((contrEquiv1 d K hr hs).symm k) = ix2 k o := funext fun a => Fin.ext (by
    match a with
    | ⟨0, _⟩ => exact (r0 _ _).trans hk
    | ⟨1, _⟩ => exact r1 _ _)
  rw [el, er]

/-- The host's plain `dot_general` is the matrix product of its operands. -/
theorem dotGeneral_eq_matProd {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ (j : (⟨2, ![M, N]⟩ : Shape).Idx) (q : d.contr.Idx), (d.lhsIdx j q ⟨0, Nat.zero_lt_two⟩).val = (j ⟨0, Nat.zero_lt_two⟩).val)
    (l1 : ∀ (j : (⟨2, ![M, N]⟩ : Shape).Idx) (q : d.contr.Idx), (d.lhsIdx j q ⟨1, Nat.one_lt_two⟩).val = (q ⟨0, by omega⟩).val)
    (r0 : ∀ (j : (⟨2, ![M, N]⟩ : Shape).Idx) (q : d.contr.Idx), (d.rhsIdx j q ⟨0, Nat.zero_lt_two⟩).val = (q ⟨0, by omega⟩).val)
    (r1 : ∀ (j : (⟨2, ![M, N]⟩ : Shape).Idx) (q : d.contr.Idx), (d.rhsIdx j q ⟨1, Nat.one_lt_two⟩).val = (j ⟨1, Nat.one_lt_two⟩).val)
    (prec : Option ContractPrecision) (sched : HostSchedule) (lhs : FVec Ideal ⟨2, ![M, K]⟩ φ₁) (rhs : FVec Ideal ⟨2, ![K, N]⟩ φ₂) :
    FloatOps.dotGeneral d prec sched lhs rhs = matProd lhs rhs :=
  funext fun j => by
    rw [eq_ix2 j]
    exact dotGeneral_apply d hr hs l0 l1 r0 r1 prec sched lhs rhs (j 0) (j 1)

end Cert.Lib.PlainDot

end
-- ==== Proof.Tail.lean ====
/-
  The lines after the product: the sparse aggregation, as one function of the product array.

  Both programs finish alike.  The column indices are wrapped (a negative index `c` is read as `c + 50000`); for every
  edge `e` the row `cols[e]` of the product array is gathered and scaled by the edge's value; the scaled rows are
  scatter-added, from the zero matrix, into the rows `rows[e]`; and the bias is added to every row.  `aggregate` is
  that function of the product array and of the four remaining arguments (row indices, column indices, edge values,
  bias).  The reference applies it to its `dot_general` of the features and the weights, and that `dot_general` is the
  matrix product `(H · W)(i, o) = Σ_k H(i, k) · W(k, o)` on the extended reals.
-/
import proofs.«108067_j60060822667745_2_alg».proof.Proof.Gen.ReferenceIdeal.Run
import proofs.«108067_j60060822667745_2_alg».proof.Proof.Gen.ReferenceIdeal.Read
import proofs.«108067_j60060822667745_2_alg».proof.Proof.LibPlainDot

noncomputable section

open Idealize.ShloMosaic Idealize.ShloMosaic.TcCoe Idealize.SL.Sem

namespace Cert.ReferenceIdeal.Aggregate

open Cert.ReferenceIdeal Cert.ReferenceIdeal.Gen Cert.Lib.PlainDot

/-- The aggregation `A · hw + bias` of a `[50000, 128]` array `hw` along the edges `(rows[e], cols[e], vals[e])`:
    gather the rows `cols[e]` (negative indices wrapped by 50000), scale each by `vals[e]`, scatter-add them from zero
    into the rows `rows[e]`, add `bias` to every row. -/
def aggregate (hw : FVec Ideal S50000x128 .f32) (rows cols : IVec S800000 32) (vals : FVec Ideal S800000 .f32)
    (bias : FVec Ideal S128 .f32) : FVec Ideal S50000x128 .f32 :=
  addf (F := Ideal)
    (Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 rows)
      (mulf (F := Ideal)
        (broadcastInDim S800000x128 ![0, 1] bcast_S800000x1_S800000x128_0_1 (broadcastInDim S800000x1 ![0] bcast_S800000_S800000x1_0 vals))
        (Host.gather gather_S50000x128_S800000x1_S800000x128_1_0_n_n_0_1_1128 hw
          (broadcastInDim S800000x1 ![0] bcast_S800000_S800000x1_0
            (select (cmpi .slt cols (broadcastInDim S800000 ![] bcast_S_S800000 (constantI S_ 32 0#32)))
              (addi cols (broadcastInDim S800000 ![] bcast_S_S800000 (constantI S_ 32 50000#32))) cols)))))
    (broadcastInDim S50000x128 ![0, 1] bcast_S1x128_S50000x128_0_1 (broadcastInDim S1x128 ![1] bcast_S128_S1x128_1 bias))

/-- The reference's `dot_general` of the features and the weights is their matrix product. -/
theorem dot_eq (H : FVec Ideal S50000x128 .f32) (W : FVec Ideal S128x128 .f32) :
    Host.dotGeneral (F := Ideal) dot_S50000x128_S128x128_S50000x128_1_0_0_1_n_n none H W
      = matProd (M := 50000) (K := 128) (N := 128) H W :=
  dotGeneral_eq_matProd dot_S50000x128_S128x128_S50000x128_1_0_0_1_n_n rfl rfl
    Read.lhs_main_v0_0 Read.lhs_main_v0_1 Read.rhs_main_v0_0 Read.rhs_main_v0_1 none .single H W

/-- What the reference computes — the aggregation of its `dot_general` — is the aggregation of `H · W`. -/
theorem reference_value (rows cols : IVec S800000 32) (vals : FVec Ideal S800000 .f32) (H : FVec Ideal S50000x128 .f32)
    (W : FVec Ideal S128x128 .f32) (bias : FVec Ideal S128 .f32) :
    aggregate (Host.dotGeneral (F := Ideal) dot_S50000x128_S128x128_S50000x128_1_0_0_1_n_n none H W) rows cols vals bias
      = aggregate (matProd (M := 50000) (K := 128) (N := 128) H W) rows cols vals bias := by
  rw [dot_eq]

end Cert.ReferenceIdeal.Aggregate

end
-- ==== Proof.LibPlainMatmul.lean ====
/-
  A plain matrix product read at a row and a column.

  For a product of an `[M, K]` matrix by a `[K, N]` matrix that contracts the first operand's second axis with the second
  operand's first axis and has no batch axis, accumulated into the zero matrix, the entry at `(i, o)` is, on the extended
  reals, the sum over `k` of the first operand at `(i, k)` times the second at `(k, o)`.  The lemma takes the four
  coordinate facts of the dimension record (which operand coordinate reads the result index, which the contraction index) as
  hypotheses, so that it serves any record with this layout, whatever its extents.
-/
import Idealize.ShloMosaic.PureOps.Ideal.Laws
import Idealize.ShloMosaic.Lib.ValueIdx

noncomputable section

open scoped BigOperators

namespace Cert.Lib.PlainMatmul

open Idealize.ShloMosaic Idealize.ShloMosaic.ValueIdx

/-- The entry `(i, o)` of `lhs · rhs` accumulated into zero is `∑ k, lhs (i, k) * rhs (k, o)`. -/
theorem matmul_zero_apply {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ (j : (⟨2, ![M, N]⟩ : Shape).Idx) (q : d.contr.Idx), (d.lhsIdx j q ⟨0, Nat.zero_lt_two⟩).val = (j ⟨0, Nat.zero_lt_two⟩).val)
    (l1 : ∀ (j : (⟨2, ![M, N]⟩ : Shape).Idx) (q : d.contr.Idx), (d.lhsIdx j q ⟨1, Nat.one_lt_two⟩).val = (q ⟨0, by omega⟩).val)
    (r0 : ∀ (j : (⟨2, ![M, N]⟩ : Shape).Idx) (q : d.contr.Idx), (d.rhsIdx j q ⟨0, Nat.zero_lt_two⟩).val = (q ⟨0, by omega⟩).val)
    (r1 : ∀ (j : (⟨2, ![M, N]⟩ : Shape).Idx) (q : d.contr.Idx), (d.rhsIdx j q ⟨1, Nat.one_lt_two⟩).val = (j ⟨1, Nat.one_lt_two⟩).val)
    (prec : Option ContractPrecision) (lhs : FVec Ideal ⟨2, ![M, K]⟩ φ₁) (rhs : FVec Ideal ⟨2, ![K, N]⟩ φ₂)
    (i : Fin M) (o : Fin N) :
    matmul d prec lhs rhs (constant ⟨2, ![M, N]⟩ .f32 0x00000000#32) (ix2 i o)
      = ∑ k : Fin K, lhs (ix2 i k) * rhs (ix2 k o) := by
  refine (Ideal.matmul_constant_zero_apply d prec lhs rhs (ix2 i o)).trans ?_
  rw [← Equiv.sum_comp (contrEquiv1 d K hr hs).symm]
  refine Finset.sum_congr rfl fun k _ => ?_
  have hk := contrEquiv1_symm_val d K hr hs k
  have el : d.lhsIdx (ix2 i o) ((contrEquiv1 d K hr hs).symm k) = ix2 i k := funext fun a => Fin.ext (by
    match a with
    | ⟨0, _⟩ => exact l0 _ _
    | ⟨1, _⟩ => exact (l1 _ _).trans hk)
  have er : d.rhsIdx (ix2 i o) ((contrEquiv1 d K hr hs).symm k) = ix2 k o := funext fun a => Fin.ext (by
    match a with
    | ⟨0, _⟩ => exact (r0 _ _).trans hk
    | ⟨1, _⟩ => exact r1 _ _)
  rw [el, er]

end Cert.Lib.PlainMatmul

end
-- ==== Proof.Product.lean ====
/-
  The array the kernel's region leaves is the matrix product of the node features and the weights.

  The region runs over ten grid points.  At point `t` the body reads rows `5000·t … 5000·t + 4999` of the feature
  matrix `H` (a `[5000, 128]` block) and the whole `[128, 128]` weight matrix `W`, multiplies them into a zero
  accumulator, and writes the `[5000, 128]` result back as rows `5000·t … 5000·t + 4999` of the output.  On the
  extended reals a change of float format is the identity, so the entry `(p, q)` of the block written at point `t` is
  `Σ_k H(5000·t + p, k) · W(k, q)`, which is the entry `(5000·t + p, q)` of `H · W`.  The ten blocks tile the
  `[50000, 128]` output (row `r` lies in the block of point `r / 5000`), so after the region the output holds
  `H · W` whole.  No law beyond the definition of the product is used, so nothing here needs the inputs finite.
-/
import proofs.«108067_j60060822667745_2_alg».proof.Proof.Gen.KernelIdeal.Frame
import proofs.«108067_j60060822667745_2_alg».proof.Proof.LibPlainMatmul
import proofs.«108067_j60060822667745_2_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Product

open Cert.KernelIdeal Cert.KernelIdeal.Gen Cert.Lib.PlainMatmul Cert.Lib.PlainDot

variable (m : (ℓ : Loc nD τ sig) → Buf (Elt Ideal) ℓ)

/-! ## Which coordinates the body's product reads

The product's dimension record contracts the second axis of the left factor with the first axis of the right one:
the left factor is read at (result row, contraction index), the right one at (contraction index, result column). -/

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_contr (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_contr (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## The body's value at a row and a column -/

/-- What the body stores, read at `(p, q)`: the sum over `k` of the loaded feature block at `(p, k)` times the loaded
    weights at `(k, q)` — the three changes of float format are the identity, the accumulator starts at zero. -/
theorem stored_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  exact matmul_zero_apply dot_S5000x128_S128x128_S5000x128_1_0_0_1_n_n rfl rfl lhs_row lhs_contr rhs_contr rhs_col none
    (truncf .bf16 x0 bitsLt_bf16_f32) (truncf .bf16 x1 bitsLt_bf16_f32) p q

/-! ## The blocks the body is given -/

/-- The printed index maps over the ten points: the feature block and the output block of point `t` are block row `t`,
    the weight block is always the whole matrix. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature block of point `t` at `(p, k)` is `H` at `(5000·t + p, k)`. -/
theorem rows_apply (c : Dev nD) (t : Fin cfg0.N) (x : S5000x128.Idx) (k : S50000x128.Idx)
    (hk0 : (k 0).val = 5000 * t.val + (x 0).val) (hk1 : (k 1).val = (x 1).val) :
    (iblk m c 0 t : Vec Ideal S5000x128 .f32) x = (m ((c : Thread nD τ).loc main_arg3) : S50000x128.Idx → Elt Ideal .f32) k := by
  obtain ⟨e0, e1, -⟩ := index_facts t
  unfold iblk
  rw [View.read_apply]
  show V m c main_arg3 _ = m ((c : Thread nD τ).loc main_arg3) _
  rw [V_main_arg3]
  refine congrArg _ (funext fun a => Fin.ext ?_)
  match a with
  | ⟨0, _⟩ => show win0_0.index t (0 : Fin 2) * 5000 + 1 * (x 0).val = (k 0).val; rw [e0, hk0]; omega
  | ⟨1, _⟩ => show win0_0.index t (1 : Fin 2) * 128 + 1 * (x 1).val = (k 1).val; rw [e1, hk1]; omega

/-- The weight block of every point is `W`. -/
theorem weights_apply (c : Dev nD) (t : Fin cfg0.N) (x : S128x128.Idx) :
    (iblk m c 1 t : Vec Ideal S128x128 .f32) x = (m ((c : Thread nD τ).loc main_arg4) : S128x128.Idx → Elt Ideal .f32) x := by
  obtain ⟨-, -, e2, e3, -⟩ := index_facts t
  unfold iblk
  rw [View.read_apply]
  show V m c main_arg4 _ = m ((c : Thread nD τ).loc main_arg4) _
  rw [V_main_arg4]
  refine congrArg _ (funext fun a => Fin.ext ?_)
  match a with
  | ⟨0, _⟩ => show win0_1.index t (0 : Fin 2) * 128 + 1 * (x 0).val = (x 0).val; rw [e2]; omega
  | ⟨1, _⟩ => show win0_1.index t (1 : Fin 2) * 128 + 1 * (x 1).val = (x 1).val; rw [e3]; omega

/-! ## The product, and the block written at a point -/

/-- `H · W` of the two argument arrays on core `c`. -/
abbrev prod (c : Dev nD) : S50000x128.Idx → EReal :=
  matProd (M := 50000) (K := 128) (N := 128) (m ((c : Thread nD τ).loc main_arg3)) (m ((c : Thread nD τ).loc main_arg4))

/-- What point `t` stores at `(p, q)` is `H · W` at `(5000·t + p, q)`. -/
theorem block_entry (c : Dev nD) (t : Fin cfg0.N) (p : Fin 5000) (q : Fin 128) (r : Fin 50000)
    (hr : r.val = 5000 * t.val + p.val) :
    k0_pay1 (F := Ideal) (iblk m c 0 t) (iblk m c 1 t) (ix2 p q) = prod m c (ix2 r q) := by
  refine (stored_apply (iblk m c 0 t) (iblk m c 1 t) p q).trans ?_
  refine (Finset.sum_congr rfl fun k _ => ?_).trans (matProd_apply _ _ r q).symm
  exact congrArg₂ (· * ·) (rows_apply m c t (ix2 p k) (ix2 r k) hr rfl) (weights_apply m c t (ix2 k q))

theorem hz : (![0, 0] : Fin 2 → Nat) = fun _ => 0 := funext fun a => by fin_cases a <;> rfl

/-- What point `t` writes back is block row `t` of `H · W`. -/
theorem flushed_eq (c : Dev nD) (t : Fin cfg0.N) :
    (dats m 0 c).flushed 2 t = ((cfg0.win 2).blk t).view.read (Elt Ideal) (prod m c) := by
  show (cfg0.win 2).cut (grid0.coords t) ((dats m 0 c).after 2 t) = _
  rw [after0_2]
  unfold out0_2
  rw [View.canon_unit_zero hz]
  simp only [View.ld_unit_zero (S := S5000x128) hz, View.ld_unit_zero (S := S128x128) hz]
  obtain ⟨-, -, -, -, e4, e5⟩ := index_facts t
  have hN : cfg0.N = 10 := N_0
  have ht : t.val < 10 := hN ▸ t.isLt
  funext j
  obtain ⟨p, q, rfl⟩ : ∃ (p : Fin 5000) (q : Fin 128), j = ix2 p q := ⟨j 0, j 1, eq_ix2 j⟩
  show k0_pay1 (F := Ideal) (iblk m c 0 t) (iblk m c 1 t) (ix2 p q) = prod m c (((cfg0.win 2).blk t).view.emb (ix2 p q))
  refine (block_entry m c t p q ⟨5000 * t.val + p.val, by omega⟩ rfl).trans ?_
  refine congrArg (prod m c) (funext fun a => Fin.ext ?_)
  match a with
  | ⟨0, _⟩ => show 5000 * t.val + p.val = win0_2.index t (0 : Fin 2) * 5000 + 1 * p.val; rw [e4]; omega
  | ⟨1, _⟩ => show q.val = win0_2.index t (1 : Fin 2) * 128 + 1 * q.val; rw [e5]; omega

/-! ## The blocks tile the output -/

/-- An index of the output is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- Row `r` of the output lies in the block of point `r / 5000`, and every point writes its block back. -/
theorem cover (i : S50000x128.Idx) :
    ∃ t : Fin cfg0.N, (cfg0.win 2).flush t = true ∧ i ∈ ((cfg0.win 2).blk t).view.set := by
  have hN : cfg0.N = 10 := N_0
  have h0 : (i 0).val < 50000 := (i 0).isLt
  have h1 : (i 1).val < 128 := (i 1).isLt
  obtain ⟨t, ht⟩ : ∃ t : Fin cfg0.N, t.val = (i 0).val / 5000 := ⟨⟨(i 0).val / 5000, by rw [hN]; omega⟩, rfl⟩
  obtain ⟨-, -, -, -, e4, e5⟩ := index_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 128 ≤ (i 1).val ∧ (i 1).val < win0_2.index t (1 : Fin 2) * 128 + 128; rw [e5]; omega

/-- After the region the output array holds `H · W`. -/
theorem final (c : Dev nD) : (dats m 0 c).arrAt 2 cfg0.N = prod m c :=
  (dats m 0 c).arrAt_eq_of_cover 2 (prod m c) (fun t _ => flushed_eq m c t) cover

end Cert.KernelIdeal.Product

end
-- ==== Proof.KernelValue.lean ====
/-
  What the kernel's program computes: the aggregation of `H · W`.

  After the region the product array holds `H · W` (`Product.final`), and the host lines that follow read it and the
  four other arguments, none of which the region or an earlier line has written.  Those lines are the aggregation of
  `Tail.lean` with one difference: the product array is kept in bfloat16, so the gathered rows are widened to f32
  before they are scaled.  On the extended reals widening is the identity, so the result is
  `aggregate (H · W) rows cols vals bias`.
-/
import proofs.«108067_j60060822667745_2_alg».proof.Proof.Product
import proofs.«108067_j60060822667745_2_alg».proof.Proof.Tail
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.StableHlo
open Idealize.ShloMosaic.Pipeline (Dat)

namespace Cert.KernelIdeal.Aggregated

open Cert.KernelIdeal Cert.KernelIdeal.Gen Cert.KernelIdeal.Product
open Cert.ReferenceIdeal.Aggregate (aggregate)

variable (m : (ℓ : Loc nD τ sig) → Buf (Elt Ideal) ℓ) (ρ : Dev nD → PrngReg)

/-! ## What the lines after the region find -/

/-- The product array, as the region leaves it, is `H · W`. -/
theorem found_product (c : Dev nD) :
    Pipeline.withArrays (cfgs 0).spec c (V0 m c) (fun w => (dats m 0 c).arrAt w (cfgs 0).N) (Proc.devRef .tc main_v0)
      = prod m c :=
  (Pipeline.withArrays_arr spec0 launch0.win.arr_inj c _ _ 2).trans (final m c)

/-- The row indices are as launched: no window of the region is this array. -/
theorem found_rows (c : Dev nD) :
    Pipeline.withArrays (cfgs 0).spec c (V0 m c) (fun w => (dats m 0 c).arrAt w (cfgs 0).N) (Proc.devRef .tc main_arg0)
      = (m ((c : Thread nD τ).loc main_arg0)) :=
  (Pipeline.withArrays_of_ne _ c (V0 m c) _ main_arg0 (by exact (by decide : ∀ w, Pipeline.arrRef spec0 w ≠ main_arg0))).trans (V_main_arg0 m c)
/-- The column indices are as launched. -/
theorem found_cols (c : Dev nD) :
    Pipeline.withArrays (cfgs 0).spec c (V0 m c) (fun w => (dats m 0 c).arrAt w (cfgs 0).N) (Proc.devRef .tc main_arg1)
      = (m ((c : Thread nD τ).loc main_arg1)) :=
  (Pipeline.withArrays_of_ne _ c (V0 m c) _ main_arg1 (by exact (by decide : ∀ w, Pipeline.arrRef spec0 w ≠ main_arg1))).trans (V_main_arg1 m c)
/-- The edge values are as launched. -/
theorem found_vals (c : Dev nD) :
    Pipeline.withArrays (cfgs 0).spec c (V0 m c) (fun w => (dats m 0 c).arrAt w (cfgs 0).N) (Proc.devRef .tc main_arg2)
      = (m ((c : Thread nD τ).loc main_arg2)) :=
  (Pipeline.withArrays_of_ne _ c (V0 m c) _ main_arg2 (by exact (by decide : ∀ w, Pipeline.arrRef spec0 w ≠ main_arg2))).trans (V_main_arg2 m c)
/-- The bias is as launched. -/
theorem found_bias (c : Dev nD) :
    Pipeline.withArrays (cfgs 0).spec c (V0 m c) (fun w => (dats m 0 c).arrAt w (cfgs 0).N) (Proc.devRef .tc main_arg5)
      = (m ((c : Thread nD τ).loc main_arg5)) :=
  (Pipeline.withArrays_of_ne _ c (V0 m c) _ main_arg5 (by exact (by decide : ∀ w, Pipeline.arrRef spec0 w ≠ main_arg5))).trans (V_main_arg5 m c)

/-! ## The result of the lines after the region -/

set_option maxHeartbeats 2000000 in
/-- The program's result is the aggregation of `H · W`: the lines after the region are the aggregation's, the
    widening of the gathered bfloat16 rows being the identity on the extended reals. -/
theorem result_value (c : Dev nD) :
    Pipeline.afterTail₀ cfgs (dats m) 0 (V0 m) [hostOps1] c main_v17
      = aggregate (prod m c) (m ((c : Thread nD τ).loc main_arg0)) (m ((c : Thread nD τ).loc main_arg1)) (m ((c : Thread nD τ).loc main_arg2)) (m ((c : Thread nD τ).loc main_arg5)) := by
  unfold Pipeline.afterTail₀
  simp only [List.flatten_cons, List.flatten_nil, List.append_nil]
  after_results
  rw [found_product m c, found_rows m c, found_cols m c, found_vals m c, found_bias m c]
  rfl

/-! ## The run -/

/-- Every weakly fair execution of the kernel's program terminates with its result at the aggregation of `H · W` and its
    six arguments unchanged. -/
theorem run : θ_run defs (onTc (τ := τ) (main (F := Ideal))) ⟨m, fun _ => 0, ρ⟩ fun r => ∀ c : Dev nD,
      r.2.mem ((c : Thread nD τ).loc main_v17)
        = aggregate (prod m c) (m ((c : Thread nD τ).loc main_arg0)) (m ((c : Thread nD τ).loc main_arg1)) (m ((c : Thread nD τ).loc main_arg2)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
    ⟨((h c).2 main_v17 (Pipeline.mem_restRefs_of main_v17 (by decide) (by decide))).trans (result_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 0).trans (((dats m 0 c).arrAt_in 0 rfl _).trans ((A_eq m c 0).trans (V_main_arg3 m c))),
      ((h c).1 1).trans (((dats m 0 c).arrAt_in 1 rfl _).trans ((A_eq m c 1).trans (V_main_arg4 m c))),
      ((h c).2 main_arg5 (Pipeline.mem_restRefs_of main_arg5 (by decide) (by decide))).trans (W_main_arg5 m (dats m) c)⟩)
    (run_main m ρ)

end Cert.KernelIdeal.Aggregated

end
-- ==== Proof.lean ====
/-
  A sparse-times-dense layer: `out = A · (H · W) + bias`, with `A` given by its edges `(rows[e], cols[e], vals[e])`.

  The kernel's program computes `H · W` in a region of ten grid points, each multiplying a `[5000, 128]` block of rows
  of `H` by `W` and storing the block in bfloat16; the lines after the region gather row `cols[e]` of that array for
  every edge, widen it to f32, scale it by `vals[e]`, scatter-add the scaled rows from zero into the rows `rows[e]`, and
  add the bias.  The reference computes `H · W` by one `dot_general` and then does the same gather, scaling, scatter-add
  and bias.  On the extended reals a change of float format is the identity, a product accumulated into zero and a
  `dot_general` are both `Σ_k H(i, k) · W(k, o)`, and the ten row blocks tile the product array; so both programs end
  at `aggregate (H · W) rows cols vals bias` (Proof/Tail.lean), the kernel's by Proof/Product.lean and
  Proof/KernelValue.lean, the reference's by its run read back.  The two sides are the same sums of the same terms:
  no distributivity or cancellation is involved, and the inputs' finiteness is not used.

  The three frames are the programs' runs with the results dropped; the idealization rewrote nothing, so `preserves`
  is trivial.
-/
import proofs.«108067_j60060822667745_2_alg».proof.Defs
import proofs.«108067_j60060822667745_2_alg».proof.Proof.Gen.Kernel
import proofs.«108067_j60060822667745_2_alg».proof.Proof.Gen.Kernel.Skeleton
import proofs.«108067_j60060822667745_2_alg».proof.Proof.Gen.Kernel.Launch
import proofs.«108067_j60060822667745_2_alg».proof.Proof.Gen.Kernel.Points
import proofs.«108067_j60060822667745_2_alg».proof.Proof.Gen.Kernel.Frame
import proofs.«108067_j60060822667745_2_alg».proof.Proof.Gen.KernelIdeal
import proofs.«108067_j60060822667745_2_alg».proof.Proof.Gen.KernelIdeal.Skeleton
import proofs.«108067_j60060822667745_2_alg».proof.Proof.Gen.KernelIdeal.Launch
import proofs.«108067_j60060822667745_2_alg».proof.Proof.Gen.KernelIdeal.Points
import proofs.«108067_j60060822667745_2_alg».proof.Proof.Gen.KernelIdeal.Frame
import proofs.«108067_j60060822667745_2_alg».proof.Proof.Gen.ReferenceIdeal
import proofs.«108067_j60060822667745_2_alg».proof.Proof.Gen.Pre_finite_inputs
import proofs.«108067_j60060822667745_2_alg».proof.Proof.Gen.ReferenceIdeal.Run
import proofs.«108067_j60060822667745_2_alg».proof.Proof.Gen.ReferenceIdeal.Read
import proofs.«108067_j60060822667745_2_alg».proof.Proof.Tail
import proofs.«108067_j60060822667745_2_alg».proof.Proof.KernelValue
import Idealize.ShloMosaic.Adequacy
import Idealize.ShloMosaic.Init

noncomputable section

namespace Cert.Proof

open Idealize.ShloMosaic Idealize.ShloMosaic.TcCoe Idealize.SL.Sem

/-- The kernel's program as printed runs and leaves its arguments unchanged. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference runs and leaves its arguments unchanged: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten to read the kernel's program on the extended reals. -/
theorem preserves : Cert.preserves_Kernel_KernelIdeal := trivial

/-- From memories agreeing on the six arguments both programs end at `aggregate (H · W) rows cols vals bias`:
    the kernel's by its region's product array and the lines after it, the reference's because its `dot_general` is
    `H · W`. -/
theorem algebraic : Cert.algebraic_KernelIdeal_ReferenceIdeal := by
  intro m ρ m' ρ' _ hagree
  refine ⟨fun c => Cert.ReferenceIdeal.Aggregate.aggregate (Cert.KernelIdeal.Product.prod m c)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)),
    Cert.KernelIdeal.Aggregated.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [a0, a1, a2, a3, a4, a5]
  exact Cert.ReferenceIdeal.Aggregate.reference_value (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
    (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
